-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S8192x4096 : Shape := ⟨2, ![8192, 4096]⟩
abbrev S1x4096 : Shape := ⟨2, ![1, 4096]⟩
abbrev S1024x1024 : Shape := ⟨2, ![1024, 1024]⟩
abbrev S1024x2048 : Shape := ⟨2, ![1024, 2048]⟩
abbrev S1x2048 : Shape := ⟨2, ![1, 2048]⟩

abbrev nBuf : Space → Nat
  | .hbm => 36
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096x4096, .f32⟩
  | .hbm, ⟨31, _⟩ => ⟨S8192x4096, .f32⟩
  | .hbm, ⟨32, _⟩ => ⟨S4096x4096, .bf16⟩
  | .hbm, ⟨33, _⟩ => ⟨S1x4096, .f32⟩
  | .hbm, ⟨34, _⟩ => ⟨S8192x4096, .f32⟩
  | .hbm, ⟨35, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  shapeCasts_S4096x1_S4096 : S4096x1.ShapeCasts S4096
  transposes_S4096x4096_S4096x4096_1_0 : S4096x4096.Transposes [1, 0] S4096x4096
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_v18) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4x2048x4096, .f32⟩
  | .hbm, ⟨31, _⟩ => ⟨S1x1x4096, .f32⟩
  | .hbm, ⟨32, _⟩ => ⟨S4x2048x4096, .f32⟩
  | .hbm, ⟨33, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  shapeCasts_S4096x1_S4096 : S4096x1.ShapeCasts S4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.K.Conds.lean ====
/-
  The grid is 8 × 2 × 4 = 64 points, visited in row-major order, so the point numbered t has contraction-block
  coordinate k = t mod 4.  The body branches three times on k: it STORES the block product when k = 0, ADDS it to
  what the output block holds when k > 0, and at the last contraction block, k = 3, adds the bias row as well.
  Here the three conditions are decided over the 64 points in closed form, and the staging memrefs the pipeline
  hands the body at a point are named.
-/
import proofs.«118897_j15367392985733_2_alg».proof.Proof.Gen.Kernel.Skeleton
import proofs.«118897_j15367392985733_2_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (store the product) is taken exactly at the points with k = 0. -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)

/-- The second branch (add the product) is taken exactly at the points with k > 0. -/
theorem hcond2 : ∀ t : Fin cfg0.N, k0_cond2 (grid0.coords t) = 1#1 ↔ t.val % 4 ≠ 0 :=
  (by decide +kernel : ∀ t : Fin grid0.N, k0_cond2 (grid0.coords t) = 1#1 ↔ t.val % 4 ≠ 0)

/-- The third branch (add the bias row) is taken exactly at the points with k = 3. -/
theorem hcond3 : ∀ t : Fin cfg0.N, k0_cond3 (grid0.coords t) = 1#1 ↔ t.val % 4 = 3 :=
  (by decide +kernel : ∀ t : Fin grid0.N, k0_cond3 (grid0.coords t) = 1#1 ↔ t.val % 4 = 3)

/-- One staging buffer of the output window, through which its contents are stated. -/
abbrev VO : View sig .tc .vmem S1024x2048 .f32 := (Memref.whole cc0_stg3_0 : Memref sig .tc .vmem S1024x2048 .f32).view

/-- Each window's current staging memref at point t, spelled as the pipeline passes it, and its wholeness. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .f32 := win0_3.stage (cfg0.slots t 3)
abbrev hs3 (t : Fin cfg0.N) : (ms3 t).IsWhole := hstage0_3 ((cfg0.slots t 3).cast nbuf0_3)

end Cert.Kernel.Body

end
-- ==== Proof.K.RunA.lean ====
/-
  The body at a point with k = 0.  It loads the x block and the weight block, loads the output block (a read whose
  value is not used), and stores the block product over the whole output block; the other two branches are not
  taken.  So the output's staging buffer ends with one piece, the product of the two input blocks, whatever it held.
-/
import proofs.«118897_j15367392985733_2_alg».proof.Proof.K.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output's staging memref at a point with k = 0, with the proof that from whole
    staging memrefs — the three inputs' at their contents, the output's at anything — the body runs to a
    continuation that holds the inputs' as they were and the output's with those pieces written. -/
noncomputable def kernelRunA (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : k0_cond1 i = 1#1) (hc2 : ¬k0_cond2 i = 1#1) (hc3 : ¬k0_cond3 i = 1#1)
    (x0 : Vec F S1024x1024 .f32) (x1 : Vec F S1024x2048 .bf16) (x2 : Vec F S1x2048 .f32) :
    { L : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0__matmul_kernel i arg3 harg3 arg4 harg4 arg5 harg5 arg6 harg6) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, %hf3, H3⟩, Hk⟩
    obtain rfl := harg3.eq_unread hf0; obtain rfl := harg4.eq_unread hf1
    obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel.Body

end
-- ==== Proof.K.RunB.lean ====
/-
  The body at a point with k = 1 or k = 2.  Only the second branch is taken: it loads the output block, which holds
  the sum of the products of the earlier contraction blocks, adds this block's product, and stores the sum over the
  whole output block.  So the output's staging buffer ends with one piece: its running contents plus the product.
-/
import proofs.«118897_j15367392985733_2_alg».proof.Proof.K.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output's staging memref at a point with 0 < k < 3, with the proof that from
    whole staging memrefs — the inputs' at their contents, the output's at its running contents `xo` — the body runs to a
    continuation that holds the inputs' as they were and the output's with those pieces written. -/
noncomputable def kernelRunB (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k0_cond1 i = 1#1) (hc2 : k0_cond2 i = 1#1) (hc3 : ¬k0_cond3 i = 1#1)
    (x0 : Vec F S1024x1024 .f32) (x1 : Vec F S1024x2048 .bf16) (x2 : Vec F S1x2048 .f32) (xo : Vec F S1024x2048 .f32) :
    { L : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0__matmul_kernel i arg3 harg3 arg4 harg4 arg5 harg5 arg6 harg6) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel.Body

end
-- ==== Proof.K.RunC.lean ====
/-
  The body at a point with k = 3, the last contraction block.  The second branch adds this block's product to the
  running contents of the output block and stores the sum; the third branch then loads that sum back, loads the bias
  row, broadcasts it down the rows, adds it, and stores again.  So the output's staging buffer ends with two pieces,
  each over the whole block, the later one — running contents plus product plus bias row — on top.
-/
import proofs.«118897_j15367392985733_2_alg».proof.Proof.K.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output's staging memref at a point with k = 3, with the proof that from whole
    staging memrefs — the inputs' at their contents, the output's at its running contents `xo` — the body runs to a
    continuation that holds the inputs' as they were and the output's with those pieces written. -/
noncomputable def kernelRunC (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k0_cond1 i = 1#1) (hc2 : k0_cond2 i = 1#1) (hc3 : k0_cond3 i = 1#1)
    (x0 : Vec F S1024x1024 .f32) (x1 : Vec F S1024x2048 .bf16) (x2 : Vec F S1x2048 .f32) (xo : Vec F S1024x2048 .f32) :
    { L : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0__matmul_kernel i arg3 harg3 arg4 harg4 arg5 harg5 arg6 harg6) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel.Body

end
-- ==== Proof.K.Body.lean ====
/-
  The frame of the program: it runs to the end, nothing faults, and its three argument arrays end as they began.

  What the output block's staging buffer holds after the body at point t is defined by recursion on t, following the
  three cases of k = t mod 4: at k = 0 the product of the point's x block and weight block; at k = 1, 2 what the
  point before left plus the product; at k = 3 that plus the bias row.  Between a point with k > 0 and the point before
  it the output block is not written back (it is written back only after k = 3) and its index does not move, so the
  buffer the body finds is the one the point before left: that is what makes the recursion the truth.  The three
  input windows are only read, so their buffers hold their blocks at every point.  With these the body's precondition at
  a point yields its postcondition by the run of the case the point is in, and the pipeline's launch theorem gives
  the run of the whole program, around the region: the host operations before it, the region, the reshape after it.
-/
import proofs.«118897_j15367392985733_2_alg».proof.Proof.K.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block -/

/-- At k = 0 the one store covers the block. -/
theorem coverA (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : k0_cond1 i = 1#1) (hc2 : ¬k0_cond2 i = 1#1) (hc3 : ¬k0_cond3 i = 1#1) (x0 : Vec F S1024x1024 .f32) (x1 : Vec F S1024x2048 .bf16) (x2 : Vec F S1x2048 .f32) (y : S1024x2048.Idx) :
    ∃ pc ∈ (kernelRunA c i arg3 harg3 arg4 harg4 arg5 harg5 arg6 harg6 hc1 hc2 hc3 x0 x1 x2).1, y ∈ pc.1.set :=
  View.cover_of_tiledL (kernelRunA c i arg3 harg3 arg4 harg4 arg5 harg5 arg6 harg6 hc1 hc2 hc3 x0 x1 x2).1 S1024x2048.size (by sl_kernel_rfl) y

/-- What the case k = 0 leaves in the output's staging buffer: its pieces read back. -/
def outA (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : k0_cond1 i = 1#1) (hc2 : ¬k0_cond2 i = 1#1) (hc3 : ¬k0_cond3 i = 1#1) (x0 : Vec F S1024x1024 .f32) (x1 : Vec F S1024x2048 .bf16) (x2 : Vec F S1x2048 .f32) : Vec F S1024x2048 .f32 :=
  VO.read (Elt F) (VO.writes (Elt F) VO.junk (kernelRunA c i arg3 harg3 arg4 harg4 arg5 harg5 arg6 harg6 hc1 hc2 hc3 x0 x1 x2).1)

/-- At 0 < k < 3 the one store covers the block. -/
theorem coverB (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k0_cond1 i = 1#1) (hc2 : k0_cond2 i = 1#1) (hc3 : ¬k0_cond3 i = 1#1) (x0 : Vec F S1024x1024 .f32) (x1 : Vec F S1024x2048 .bf16) (x2 : Vec F S1x2048 .f32) (xo : Vec F S1024x2048 .f32) (y : S1024x2048.Idx) :
    ∃ pc ∈ (kernelRunB c i arg3 harg3 arg4 harg4 arg5 harg5 arg6 harg6 hc1 hc2 hc3 x0 x1 x2 xo).1, y ∈ pc.1.set :=
  View.cover_of_tiledL (kernelRunB c i arg3 harg3 arg4 harg4 arg5 harg5 arg6 harg6 hc1 hc2 hc3 x0 x1 x2 xo).1 S1024x2048.size (by sl_kernel_rfl) y

/-- What a case 0 < k < 3 leaves in the output's staging buffer, from its running contents `xo`. -/
def outB (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k0_cond1 i = 1#1) (hc2 : k0_cond2 i = 1#1) (hc3 : ¬k0_cond3 i = 1#1) (x0 : Vec F S1024x1024 .f32) (x1 : Vec F S1024x2048 .bf16) (x2 : Vec F S1x2048 .f32) (xo : Vec F S1024x2048 .f32) : Vec F S1024x2048 .f32 :=
  VO.read (Elt F) (VO.writes (Elt F) VO.junk (kernelRunB c i arg3 harg3 arg4 harg4 arg5 harg5 arg6 harg6 hc1 hc2 hc3 x0 x1 x2 xo).1)

/-- At k = 3 the two stores (each the whole block) cover the block. -/
theorem coverC (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k0_cond1 i = 1#1) (hc2 : k0_cond2 i = 1#1) (hc3 : k0_cond3 i = 1#1) (x0 : Vec F S1024x1024 .f32) (x1 : Vec F S1024x2048 .bf16) (x2 : Vec F S1x2048 .f32) (xo : Vec F S1024x2048 .f32) (y : S1024x2048.Idx) :
    ∃ pc ∈ (kernelRunC c i arg3 harg3 arg4 harg4 arg5 harg5 arg6 harg6 hc1 hc2 hc3 x0 x1 x2 xo).1, y ∈ pc.1.set :=
  View.cover_of_tiledL (kernelRunC c i arg3 harg3 arg4 harg4 arg5 harg5 arg6 harg6 hc1 hc2 hc3 x0 x1 x2 xo).1 S1024x2048.size (by sl_kernel_rfl) y

/-- What the case k = 3 leaves in the output's staging buffer, from its running contents `xo`. -/
def outC (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k0_cond1 i = 1#1) (hc2 : k0_cond2 i = 1#1) (hc3 : k0_cond3 i = 1#1) (x0 : Vec F S1024x1024 .f32) (x1 : Vec F S1024x2048 .bf16) (x2 : Vec F S1x2048 .f32) (xo : Vec F S1024x2048 .f32) : Vec F S1024x2048 .f32 :=
  VO.read (Elt F) (VO.writes (Elt F) VO.junk (kernelRunC c i arg3 harg3 arg4 harg4 arg5 harg5 arg6 harg6 hc1 hc2 hc3 x0 x1 x2 xo).1)

/-! ## What the output block holds after each point -/

/-- The accumulation over the contraction blocks: what the output's staging buffer holds after the body at position
    `n`, the case chosen by `n mod 4`, the running contents those of position `n - 1`. -/
def outsAt (c : Dev nD) : (n : ℕ) → n < cfg0.N → Vec F S1024x2048 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond1 ⟨0, hn⟩).mpr (Nat.zero_mod _)) (fun h => (hcond2 ⟨0, hn⟩).mp h (Nat.zero_mod _)) (fun h => absurd ((hcond3 ⟨0, hn⟩).mp h) (by show ¬(0 % 4 = 3); decide)) (iblk m c 0 ⟨0, hn⟩) (iblk m c 1 ⟨0, hn⟩) (iblk m c 2 ⟨0, hn⟩)
  | n + 1, hn =>
    if h0 : (n + 1) % 4 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond1 ⟨n + 1, hn⟩).mpr h0) (fun h => (hcond2 ⟨n + 1, hn⟩).mp h h0) (fun h => by have := (hcond3 ⟨n + 1, hn⟩).mp h; (try dsimp only at this h0); omega) (iblk m c 0 ⟨n + 1, hn⟩) (iblk m c 1 ⟨n + 1, hn⟩) (iblk m c 2 ⟨n + 1, hn⟩)
    else if h3 : (n + 1) % 4 = 3 then
      outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => by have := (hcond1 ⟨n + 1, hn⟩).mp h; (try dsimp only at this h3); omega) ((hcond2 ⟨n + 1, hn⟩).mpr (by (try dsimp only at h3 ⊢); omega)) ((hcond3 ⟨n + 1, hn⟩).mpr h3) (iblk m c 0 ⟨n + 1, hn⟩) (iblk m c 1 ⟨n + 1, hn⟩) (iblk m c 2 ⟨n + 1, hn⟩) (outsAt c n (Nat.lt_of_succ_lt hn))
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond1 ⟨n + 1, hn⟩).mp h)) ((hcond2 ⟨n + 1, hn⟩).mpr h0) (fun h => h3 ((hcond3 ⟨n + 1, hn⟩).mp h)) (iblk m c 0 ⟨n + 1, hn⟩) (iblk m c 1 ⟨n + 1, hn⟩) (iblk m c 2 ⟨n + 1, hn⟩) (outsAt c n (Nat.lt_of_succ_lt hn))

/-- `outsAt` at a point with k = 0. -/
theorem outsAt_A (c : Dev nD) (t : Fin cfg0.N) (h0 : t.val % 4 = 0) :
    outsAt m c t.val t.isLt = outA c (grid0.coords t) (ms0 t) (hs0 t) (ms1 t) (hs1 t) (ms2 t) (hs2 t) (ms3 t) (hs3 t) ((hcond1 t).mpr h0) (fun h => (hcond2 t).mp h h0) (fun h => by have := (hcond3 t).mp h; (try dsimp only at this h0); omega) (iblk m c 0 t) (iblk m c 1 t) (iblk m c 2 t) := by
  obtain ⟨n, hn⟩ := t
  cases n with
  | zero => exact rfl
  | succ n => exact (dif_pos h0).trans rfl

/-- `outsAt` at a point with k = 3: over what the point before left. -/
theorem outsAt_C (c : Dev nD) (t : Fin cfg0.N) (h3 : t.val % 4 = 3) :
    outsAt m c t.val t.isLt = outC c (grid0.coords t) (ms0 t) (hs0 t) (ms1 t) (hs1 t) (ms2 t) (hs2 t) (ms3 t) (hs3 t) (fun h => by have := (hcond1 t).mp h; (try dsimp only at this h3); omega) ((hcond2 t).mpr (by (try dsimp only at h3 ⊢); omega)) ((hcond3 t).mpr h3) (iblk m c 0 t) (iblk m c 1 t) (iblk m c 2 t)
      (outsAt m c (t.val - 1) (Nat.lt_of_le_of_lt (Nat.sub_le _ _) t.isLt)) := by
  obtain ⟨n, hn⟩ := t
  cases n with
  | zero => exact absurd h3 (by show ¬(0 % 4 = 3); decide)
  | succ n => exact (dif_neg (by (try dsimp only at h3 ⊢); omega)).trans ((dif_pos h3).trans rfl)

/-- `outsAt` at a point with k = 1 or 2: over what the point before left. -/
theorem outsAt_B (c : Dev nD) (t : Fin cfg0.N) (h0 : ¬t.val % 4 = 0) (h3 : ¬t.val % 4 = 3) :
    outsAt m c t.val t.isLt = outB c (grid0.coords t) (ms0 t) (hs0 t) (ms1 t) (hs1 t) (ms2 t) (hs2 t) (ms3 t) (hs3 t) (fun h => h0 ((hcond1 t).mp h)) ((hcond2 t).mpr h0) (fun h => h3 ((hcond3 t).mp h)) (iblk m c 0 t) (iblk m c 1 t) (iblk m c 2 t)
      (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

/-! ## The pipeline's proof data -/

/-- The proof data of the pipeline on core `c`: the arrays as the region finds them; after the body at point `t` each
    input's buffer at its block and the output's at `outsAt`; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outsAt m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The body stores into the output block at every point: one of k = 0, k > 0 holds. -/
theorem live3 : ∀ i : grid0.Coords, idle0 3 i = false := by decide +kernel
/-- The same, spelled through the pipeline's configuration. -/
theorem live3c : ∀ i : cfg0.grid.Coords, cfg0.idle 3 i = false := by decide +kernel

/-- At a point with k > 0 the output's current staging buffer holds what the body left at the point before: the
    point is not the first, and the block was not written back between (that happens only after k = 3). -/
theorem before_3 (c : Dev nD) (t : Fin cfg0.N) (h0 : ¬t.val % 4 = 0) (d) :
    (dats m 0 c).before 3 t d = outsAt m c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    live3c (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' memrefs hold their blocks; `t mod 4` says which case the point is in, and for
    k > 0 the output's memref holds what the point before left; so that case's run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  have hN : t.val < 64 := lt_of_lt_of_eq t.isLt (show cfg0.N = 64 from N_0)
  by_cases h0 : t.val % 4 = 0
  · rw [outsAt_A m c t h0]
    unfold outA
    iintro ⟨HΦ, Ho, ⟨%d0, H0⟩, ⟨%d1, H1⟩, ⟨%d2, H2⟩, ⟨%d3, H3⟩⟩
    iapply ((kernelRunA c (grid0.coords t) _ _ _ _ _ _ _ _ ((hcond1 t).mpr h0) (fun h => (hcond2 t).mp h h0) (fun h => by have := (hcond3 t).mp h; (try dsimp only at this h0); omega) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _)
  · simp only [before_3 m c t h0]
    by_cases h3 : t.val % 4 = 3
    · rw [outsAt_C m c t h3]
      unfold outC
      iintro ⟨HΦ, Ho, ⟨%d0, H0⟩, ⟨%d1, H1⟩, ⟨%d2, H2⟩, ⟨%d3, H3⟩⟩
      iapply ((kernelRunC c (grid0.coords t) _ _ _ _ _ _ _ _ (fun h => by have := (hcond1 t).mp h; (try dsimp only at this h3); omega) ((hcond2 t).mpr (by (try dsimp only at h3 ⊢); omega)) ((hcond3 t).mpr h3) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _)
    · rw [outsAt_B m c t h0 h3]
      unfold outB
      iintro ⟨HΦ, Ho, ⟨%d0, H0⟩, ⟨%d1, H1⟩, ⟨%d2, H2⟩, ⟨%d3, H3⟩⟩
      iapply ((kernelRunB c (grid0.coords t) _ _ _ _ _ _ _ _ (fun h => h0 ((hcond1 t).mp h)) ((hcond2 t).mpr h0) (fun h => h3 ((hcond3 t).mp h)) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB c _ _ _ _ _ _ _ _ _ _ _ _ _ _ _ _)

/-- The library's body obligation, at every point: its statement lets a window that is idle at a point keep its buffer,
    and the output window is idle nowhere (`live3`), so it is the obligation proved above. -/
theorem body_obligation (c : Dev nD) : BodyObligation (dats (F := F) m 0 c) (defs₀ (F := F)) Variants.none () Set.univ := fun t => by
  rw [bigSep_W0, bigSep_W0]
  simp only [live3]
  have hl : idle0 3 (grid0.coords t) = false := live3 _
  split
  · rename_i h; exact absurd (hl.symm.trans h) Bool.false_ne_true
  · exact sound_body m c t

/-! ## The run and the frame -/

set_option maxHeartbeats 4000000 in
set_option backward.isDefEq.respectTransparency.types false in
/-- Every weakly fair execution of the program terminates, and every final state has every array of the pipeline at what
    the library computes from the proof data, and every other unscoped buffer at what the reshape after the region
    leaves of the region's entry contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KI.Conds.lean ====
/-
  The grid is 8 × 2 × 4 = 64 points, visited in row-major order, so the point numbered t has contraction-block
  coordinate k = t mod 4.  The body branches three times on k: it STORES the block product when k = 0, ADDS it to
  what the output block holds when k > 0, and at the last contraction block, k = 3, adds the bias row as well.
  Here the three conditions are decided over the 64 points in closed form, and the staging memrefs the pipeline
  hands the body at a point are named.
-/
import proofs.«118897_j15367392985733_2_alg».proof.Proof.Gen.KernelIdeal.Skeleton
import proofs.«118897_j15367392985733_2_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (store the product) is taken exactly at the points with k = 0. -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)

/-- The second branch (add the product) is taken exactly at the points with k > 0. -/
theorem hcond2 : ∀ t : Fin cfg0.N, k0_cond2 (grid0.coords t) = 1#1 ↔ t.val % 4 ≠ 0 :=
  (by decide +kernel : ∀ t : Fin grid0.N, k0_cond2 (grid0.coords t) = 1#1 ↔ t.val % 4 ≠ 0)

/-- The third branch (add the bias row) is taken exactly at the points with k = 3. -/
theorem hcond3 : ∀ t : Fin cfg0.N, k0_cond3 (grid0.coords t) = 1#1 ↔ t.val % 4 = 3 :=
  (by decide +kernel : ∀ t : Fin grid0.N, k0_cond3 (grid0.coords t) = 1#1 ↔ t.val % 4 = 3)

/-- One staging buffer of the output window, through which its contents are stated. -/
abbrev VO : View sig .tc .vmem S1024x2048 .f32 := (Memref.whole cc0_stg3_0 : Memref sig .tc .vmem S1024x2048 .f32).view

/-- Each window's current staging memref at point t, spelled as the pipeline passes it, and its wholeness. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .f32 := win0_3.stage (cfg0.slots t 3)
abbrev hs3 (t : Fin cfg0.N) : (ms3 t).IsWhole := hstage0_3 ((cfg0.slots t 3).cast nbuf0_3)

end Cert.KernelIdeal.Body

end
-- ==== Proof.KI.RunA.lean ====
/-
  The body at a point with k = 0.  It loads the x block and the weight block, loads the output block (a read whose
  value is not used), and stores the block product over the whole output block; the other two branches are not
  taken.  So the output's staging buffer ends with one piece, the product of the two input blocks, whatever it held.
-/
import proofs.«118897_j15367392985733_2_alg».proof.Proof.KI.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output's staging memref at a point with k = 0, with the proof that from whole
    staging memrefs — the three inputs' at their contents, the output's at anything — the body runs to a
    continuation that holds the inputs' as they were and the output's with those pieces written. -/
noncomputable def kernelRunA (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : k0_cond1 i = 1#1) (hc2 : ¬k0_cond2 i = 1#1) (hc3 : ¬k0_cond3 i = 1#1)
    (x0 : Vec F S1024x1024 .f32) (x1 : Vec F S1024x2048 .bf16) (x2 : Vec F S1x2048 .f32) :
    { L : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0__matmul_kernel i arg3 harg3 arg4 harg4 arg5 harg5 arg6 harg6) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, %hf3, H3⟩, Hk⟩
    obtain rfl := harg3.eq_unread hf0; obtain rfl := harg4.eq_unread hf1
    obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Body

end
-- ==== Proof.KI.RunB.lean ====
/-
  The body at a point with k = 1 or k = 2.  Only the second branch is taken: it loads the output block, which holds
  the sum of the products of the earlier contraction blocks, adds this block's product, and stores the sum over the
  whole output block.  So the output's staging buffer ends with one piece: its running contents plus the product.
-/
import proofs.«118897_j15367392985733_2_alg».proof.Proof.KI.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output's staging memref at a point with 0 < k < 3, with the proof that from
    whole staging memrefs — the inputs' at their contents, the output's at its running contents `xo` — the body runs to a
    continuation that holds the inputs' as they were and the output's with those pieces written. -/
noncomputable def kernelRunB (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k0_cond1 i = 1#1) (hc2 : k0_cond2 i = 1#1) (hc3 : ¬k0_cond3 i = 1#1)
    (x0 : Vec F S1024x1024 .f32) (x1 : Vec F S1024x2048 .bf16) (x2 : Vec F S1x2048 .f32) (xo : Vec F S1024x2048 .f32) :
    { L : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0__matmul_kernel i arg3 harg3 arg4 harg4 arg5 harg5 arg6 harg6) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Body

end
-- ==== Proof.KI.RunC.lean ====
/-
  The body at a point with k = 3, the last contraction block.  The second branch adds this block's product to the
  running contents of the output block and stores the sum; the third branch then loads that sum back, loads the bias
  row, broadcasts it down the rows, adds it, and stores again.  So the output's staging buffer ends with two pieces,
  each over the whole block, the later one — running contents plus product plus bias row — on top.
-/
import proofs.«118897_j15367392985733_2_alg».proof.Proof.KI.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output's staging memref at a point with k = 3, with the proof that from whole
    staging memrefs — the inputs' at their contents, the output's at its running contents `xo` — the body runs to a
    continuation that holds the inputs' as they were and the output's with those pieces written. -/
noncomputable def kernelRunC (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k0_cond1 i = 1#1) (hc2 : k0_cond2 i = 1#1) (hc3 : k0_cond3 i = 1#1)
    (x0 : Vec F S1024x1024 .f32) (x1 : Vec F S1024x2048 .bf16) (x2 : Vec F S1x2048 .f32) (xo : Vec F S1024x2048 .f32) :
    { L : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0__matmul_kernel i arg3 harg3 arg4 harg4 arg5 harg5 arg6 harg6) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Body

end
-- ==== Proof.KI.Body.lean ====
/-
  The frame of the program: it runs to the end, nothing faults, and its three argument arrays end as they began.

  What the output block's staging buffer holds after the body at point t is defined by recursion on t, following the
  three cases of k = t mod 4: at k = 0 the product of the point's x block and weight block; at k = 1, 2 what the
  point before left plus the product; at k = 3 that plus the bias row.  Between a point with k > 0 and the point before
  it the output block is not written back (it is written back only after k = 3) and its index does not move, so the
  buffer the body finds is the one the point before left: that is what makes the recursion the truth.  The three
  input windows are only read, so their buffers hold their blocks at every point.  With these the body's precondition at
  a point yields its postcondition by the run of the case the point is in, and the pipeline's launch theorem gives
  the run of the whole program, around the region: the host operations before it, the region, the reshape after it.
-/
import proofs.«118897_j15367392985733_2_alg».proof.Proof.KI.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block -/

/-- At k = 0 the one store covers the block. -/
theorem coverA (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : k0_cond1 i = 1#1) (hc2 : ¬k0_cond2 i = 1#1) (hc3 : ¬k0_cond3 i = 1#1) (x0 : Vec F S1024x1024 .f32) (x1 : Vec F S1024x2048 .bf16) (x2 : Vec F S1x2048 .f32) (y : S1024x2048.Idx) :
    ∃ pc ∈ (kernelRunA c i arg3 harg3 arg4 harg4 arg5 harg5 arg6 harg6 hc1 hc2 hc3 x0 x1 x2).1, y ∈ pc.1.set :=
  View.cover_of_tiledL (kernelRunA c i arg3 harg3 arg4 harg4 arg5 harg5 arg6 harg6 hc1 hc2 hc3 x0 x1 x2).1 S1024x2048.size (by sl_kernel_rfl) y

/-- What the case k = 0 leaves in the output's staging buffer: its pieces read back. -/
def outA (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : k0_cond1 i = 1#1) (hc2 : ¬k0_cond2 i = 1#1) (hc3 : ¬k0_cond3 i = 1#1) (x0 : Vec F S1024x1024 .f32) (x1 : Vec F S1024x2048 .bf16) (x2 : Vec F S1x2048 .f32) : Vec F S1024x2048 .f32 :=
  VO.read (Elt F) (VO.writes (Elt F) VO.junk (kernelRunA c i arg3 harg3 arg4 harg4 arg5 harg5 arg6 harg6 hc1 hc2 hc3 x0 x1 x2).1)

/-- At 0 < k < 3 the one store covers the block. -/
theorem coverB (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k0_cond1 i = 1#1) (hc2 : k0_cond2 i = 1#1) (hc3 : ¬k0_cond3 i = 1#1) (x0 : Vec F S1024x1024 .f32) (x1 : Vec F S1024x2048 .bf16) (x2 : Vec F S1x2048 .f32) (xo : Vec F S1024x2048 .f32) (y : S1024x2048.Idx) :
    ∃ pc ∈ (kernelRunB c i arg3 harg3 arg4 harg4 arg5 harg5 arg6 harg6 hc1 hc2 hc3 x0 x1 x2 xo).1, y ∈ pc.1.set :=
  View.cover_of_tiledL (kernelRunB c i arg3 harg3 arg4 harg4 arg5 harg5 arg6 harg6 hc1 hc2 hc3 x0 x1 x2 xo).1 S1024x2048.size (by sl_kernel_rfl) y

/-- What a case 0 < k < 3 leaves in the output's staging buffer, from its running contents `xo`. -/
def outB (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k0_cond1 i = 1#1) (hc2 : k0_cond2 i = 1#1) (hc3 : ¬k0_cond3 i = 1#1) (x0 : Vec F S1024x1024 .f32) (x1 : Vec F S1024x2048 .bf16) (x2 : Vec F S1x2048 .f32) (xo : Vec F S1024x2048 .f32) : Vec F S1024x2048 .f32 :=
  VO.read (Elt F) (VO.writes (Elt F) VO.junk (kernelRunB c i arg3 harg3 arg4 harg4 arg5 harg5 arg6 harg6 hc1 hc2 hc3 x0 x1 x2 xo).1)

/-- At k = 3 the two stores (each the whole block) cover the block. -/
theorem coverC (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k0_cond1 i = 1#1) (hc2 : k0_cond2 i = 1#1) (hc3 : k0_cond3 i = 1#1) (x0 : Vec F S1024x1024 .f32) (x1 : Vec F S1024x2048 .bf16) (x2 : Vec F S1x2048 .f32) (xo : Vec F S1024x2048 .f32) (y : S1024x2048.Idx) :
    ∃ pc ∈ (kernelRunC c i arg3 harg3 arg4 harg4 arg5 harg5 arg6 harg6 hc1 hc2 hc3 x0 x1 x2 xo).1, y ∈ pc.1.set :=
  View.cover_of_tiledL (kernelRunC c i arg3 harg3 arg4 harg4 arg5 harg5 arg6 harg6 hc1 hc2 hc3 x0 x1 x2 xo).1 S1024x2048.size (by sl_kernel_rfl) y

/-- What the case k = 3 leaves in the output's staging buffer, from its running contents `xo`. -/
def outC (c : Dev nD) (i : grid0.Coords)
    (arg3 : Memref sig .tc .vmem S1024x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (hc1 : ¬k0_cond1 i = 1#1) (hc2 : k0_cond2 i = 1#1) (hc3 : k0_cond3 i = 1#1) (x0 : Vec F S1024x1024 .f32) (x1 : Vec F S1024x2048 .bf16) (x2 : Vec F S1x2048 .f32) (xo : Vec F S1024x2048 .f32) : Vec F S1024x2048 .f32 :=
  VO.read (Elt F) (VO.writes (Elt F) VO.junk (kernelRunC c i arg3 harg3 arg4 harg4 arg5 harg5 arg6 harg6 hc1 hc2 hc3 x0 x1 x2 xo).1)

/-! ## What the output block holds after each point -/

/-- The accumulation over the contraction blocks: what the output's staging buffer holds after the body at position
    `n`, the case chosen by `n mod 4`, the running contents those of position `n - 1`. -/
def outsAt (c : Dev nD) : (n : ℕ) → n < cfg0.N → Vec F S1024x2048 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond1 ⟨0, hn⟩).mpr (Nat.zero_mod _)) (fun h => (hcond2 ⟨0, hn⟩).mp h (Nat.zero_mod _)) (fun h => absurd ((hcond3 ⟨0, hn⟩).mp h) (by show ¬(0 % 4 = 3); decide)) (iblk m c 0 ⟨0, hn⟩) (iblk m c 1 ⟨0, hn⟩) (iblk m c 2 ⟨0, hn⟩)
  | n + 1, hn =>
    if h0 : (n + 1) % 4 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond1 ⟨n + 1, hn⟩).mpr h0) (fun h => (hcond2 ⟨n + 1, hn⟩).mp h h0) (fun h => by have := (hcond3 ⟨n + 1, hn⟩).mp h; (try dsimp only at this h0); omega) (iblk m c 0 ⟨n + 1, hn⟩) (iblk m c 1 ⟨n + 1, hn⟩) (iblk m c 2 ⟨n + 1, hn⟩)
    else if h3 : (n + 1) % 4 = 3 then
      outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => by have := (hcond1 ⟨n + 1, hn⟩).mp h; (try dsimp only at this h3); omega) ((hcond2 ⟨n + 1, hn⟩).mpr (by (try dsimp only at h3 ⊢); omega)) ((hcond3 ⟨n + 1, hn⟩).mpr h3) (iblk m c 0 ⟨n + 1, hn⟩) (iblk m c 1 ⟨n + 1, hn⟩) (iblk m c 2 ⟨n + 1, hn⟩) (outsAt c n (Nat.lt_of_succ_lt hn))
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond1 ⟨n + 1, hn⟩).mp h)) ((hcond2 ⟨n + 1, hn⟩).mpr h0) (fun h => h3 ((hcond3 ⟨n + 1, hn⟩).mp h)) (iblk m c 0 ⟨n + 1, hn⟩) (iblk m c 1 ⟨n + 1, hn⟩) (iblk m c 2 ⟨n + 1, hn⟩) (outsAt c n (Nat.lt_of_succ_lt hn))

/-- `outsAt` at a point with k = 0. -/
theorem outsAt_A (c : Dev nD) (t : Fin cfg0.N) (h0 : t.val % 4 = 0) :
    outsAt m c t.val t.isLt = outA c (grid0.coords t) (ms0 t) (hs0 t) (ms1 t) (hs1 t) (ms2 t) (hs2 t) (ms3 t) (hs3 t) ((hcond1 t).mpr h0) (fun h => (hcond2 t).mp h h0) (fun h => by have := (hcond3 t).mp h; (try dsimp only at this h0); omega) (iblk m c 0 t) (iblk m c 1 t) (iblk m c 2 t) := by
  obtain ⟨n, hn⟩ := t
  cases n with
  | zero => exact rfl
  | succ n => exact (dif_pos h0).trans rfl

/-- `outsAt` at a point with k = 3: over what the point before left. -/
theorem outsAt_C (c : Dev nD) (t : Fin cfg0.N) (h3 : t.val % 4 = 3) :
    outsAt m c t.val t.isLt = outC c (grid0.coords t) (ms0 t) (hs0 t) (ms1 t) (hs1 t) (ms2 t) (hs2 t) (ms3 t) (hs3 t) (fun h => by have := (hcond1 t).mp h; (try dsimp only at this h3); omega) ((hcond2 t).mpr (by (try dsimp only at h3 ⊢); omega)) ((hcond3 t).mpr h3) (iblk m c 0 t) (iblk m c 1 t) (iblk m c 2 t)
      (outsAt m c (t.val - 1) (Nat.lt_of_le_of_lt (Nat.sub_le _ _) t.isLt)) := by
  obtain ⟨n, hn⟩ := t
  cases n with
  | zero => exact absurd h3 (by show ¬(0 % 4 = 3); decide)
  | succ n => exact (dif_neg (by (try dsimp only at h3 ⊢); omega)).trans ((dif_pos h3).trans rfl)

/-- `outsAt` at a point with k = 1 or 2: over what the point before left. -/
theorem outsAt_B (c : Dev nD) (t : Fin cfg0.N) (h0 : ¬t.val % 4 = 0) (h3 : ¬t.val % 4 = 3) :
    outsAt m c t.val t.isLt = outB c (grid0.coords t) (ms0 t) (hs0 t) (ms1 t) (hs1 t) (ms2 t) (hs2 t) (ms3 t) (hs3 t) (fun h => h0 ((hcond1 t).mp h)) ((hcond2 t).mpr h0) (fun h => h3 ((hcond3 t).mp h)) (iblk m c 0 t) (iblk m c 1 t) (iblk m c 2 t)
      (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

/-! ## The pipeline's proof data -/

/-- The proof data of the pipeline on core `c`: the arrays as the region finds them; after the body at point `t` each
    input's buffer at its block and the output's at `outsAt`; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outsAt m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The body stores into the output block at every point: one of k = 0, k > 0 holds. -/
theorem live3 : ∀ i : grid0.Coords, idle0 3 i = false := by decide +kernel
/-- The same, spelled through the pipeline's configuration. -/
theorem live3c : ∀ i : cfg0.grid.Coords, cfg0.idle 3 i = false := by decide +kernel

/-- At a point with k > 0 the output's current staging buffer holds what the body left at the point before: the
    point is not the first, and the block was not written back between (that happens only after k = 3). -/
theorem before_3 (c : Dev nD) (t : Fin cfg0.N) (h0 : ¬t.val % 4 = 0) (d) :
    (dats m 0 c).before 3 t d = outsAt m c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    live3c (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' memrefs hold their blocks; `t mod 4` says which case the point is in, and for
    k > 0 the output's memref holds what the point before left; so that case's run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  have hN : t.val < 64 := lt_of_lt_of_eq t.isLt (show cfg0.N = 64 from N_0)
  by_cases h0 : t.val % 4 = 0
  · rw [outsAt_A m c t h0]
    unfold outA
    iintro ⟨HΦ, Ho, ⟨%d0, H0⟩, ⟨%d1, H1⟩, ⟨%d2, H2⟩, ⟨%d3, H3⟩⟩
    iapply ((kernelRunA c (grid0.coords t) _ _ _ _ _ _ _ _ ((hcond1 t).mpr h0) (fun h => (hcond2 t).mp h h0) (fun h => by have := (hcond3 t).mp h; (try dsimp only at this h0); omega) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _)
  · simp only [before_3 m c t h0]
    by_cases h3 : t.val % 4 = 3
    · rw [outsAt_C m c t h3]
      unfold outC
      iintro ⟨HΦ, Ho, ⟨%d0, H0⟩, ⟨%d1, H1⟩, ⟨%d2, H2⟩, ⟨%d3, H3⟩⟩
      iapply ((kernelRunC c (grid0.coords t) _ _ _ _ _ _ _ _ (fun h => by have := (hcond1 t).mp h; (try dsimp only at this h3); omega) ((hcond2 t).mpr (by (try dsimp only at h3 ⊢); omega)) ((hcond3 t).mpr h3) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _)
    · rw [outsAt_B m c t h0 h3]
      unfold outB
      iintro ⟨HΦ, Ho, ⟨%d0, H0⟩, ⟨%d1, H1⟩, ⟨%d2, H2⟩, ⟨%d3, H3⟩⟩
      iapply ((kernelRunB c (grid0.coords t) _ _ _ _ _ _ _ _ (fun h => h0 ((hcond1 t).mp h)) ((hcond2 t).mpr h0) (fun h => h3 ((hcond3 t).mp h)) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB c _ _ _ _ _ _ _ _ _ _ _ _ _ _ _ _)

/-- The library's body obligation, at every point: its statement lets a window that is idle at a point keep its buffer,
    and the output window is idle nowhere (`live3`), so it is the obligation proved above. -/
theorem body_obligation (c : Dev nD) : BodyObligation (dats (F := F) m 0 c) (defs₀ (F := F)) Variants.none () Set.univ := fun t => by
  rw [bigSep_W0, bigSep_W0]
  simp only [live3]
  have hl : idle0 3 (grid0.coords t) = false := live3 _
  split
  · rename_i h; exact absurd (hl.symm.trans h) Bool.false_ne_true
  · exact sound_body m c t

/-! ## The run and the frame -/

set_option maxHeartbeats 4000000 in
set_option backward.isDefEq.respectTransparency.types false in
/-- Every weakly fair execution of the program terminates, and every final state has every array of the pipeline at what
    the library computes from the proof data, and every other unscoped buffer at what the reshape after the region
    leaves of the region's entry contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KI.Pieces.lean ====
/-
  What each case of the body leaves in the output block, as a value: the pieces its run found, read back, are the
  stored payloads of the loaded blocks.  At k = 0 the block product; at k = 1, 2 the running contents plus the product;
  at k = 3 that sum, loaded back, plus the bias row.  Every load and store spans its whole buffer at offset zero, so
  reading the pieces back is reading the last store's payload.
-/
import proofs.«118897_j15367392985733_2_alg».proof.Proof.KI.Body
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- k = 0: the block product of the x block and the weight block. -/
theorem outA_eq (c : Dev nD) (i : grid0.Coords)
    (a3 : Memref sig .tc .vmem S1024x1024 .f32) (h3 : a3.IsWhole) (a4 : Memref sig .tc .vmem S1024x2048 .bf16) (h4 : a4.IsWhole)
    (a5 : Memref sig .tc .vmem S1x2048 .f32) (h5 : a5.IsWhole) (a6 : Memref sig .tc .vmem S1024x2048 .f32) (h6 : a6.IsWhole)
    (hc1 : k0_cond1 i = 1#1) (hc2 : ¬k0_cond2 i = 1#1) (hc3 : ¬k0_cond3 i = 1#1) (x0 : Vec F S1024x1024 .f32) (x1 : Vec F S1024x2048 .bf16) (x2 : Vec F S1x2048 .f32) :
    outA c i a3 h3 a4 h4 a5 h5 a6 h6 hc1 hc2 hc3 x0 x1 x2 = k0_pay1 x0 x1 := by
  unfold outA
  rw [View.read_writes_eq_canon _ _ _ (coverA c i a3 h3 a4 h4 a5 h5 a6 h6 hc1 hc2 hc3 x0 x1 x2)]
  unfold kernelRunA
  dsimp only
  rw [View.canon_unit_zero hz]
  simp only [View.readAt_eq_ld, h3.read_unread, h4.read_unread, View.ld_unit_zero (S := S1024x1024) hz, View.ld_unit_zero (S := S1024x2048) hz]

/-- k = 1, 2: the running contents plus the block product. -/
theorem outB_eq (c : Dev nD) (i : grid0.Coords)
    (a3 : Memref sig .tc .vmem S1024x1024 .f32) (h3 : a3.IsWhole) (a4 : Memref sig .tc .vmem S1024x2048 .bf16) (h4 : a4.IsWhole)
    (a5 : Memref sig .tc .vmem S1x2048 .f32) (h5 : a5.IsWhole) (a6 : Memref sig .tc .vmem S1024x2048 .f32) (h6 : a6.IsWhole)
    (hc1 : ¬k0_cond1 i = 1#1) (hc2 : k0_cond2 i = 1#1) (hc3 : ¬k0_cond3 i = 1#1) (x0 : Vec F S1024x1024 .f32) (x1 : Vec F S1024x2048 .bf16) (x2 : Vec F S1x2048 .f32) (xo : Vec F S1024x2048 .f32) :
    outB c i a3 h3 a4 h4 a5 h5 a6 h6 hc1 hc2 hc3 x0 x1 x2 xo = k0_pay2 x0 x1 xo := by
  unfold outB
  rw [View.read_writes_eq_canon _ _ _ (coverB c i a3 h3 a4 h4 a5 h5 a6 h6 hc1 hc2 hc3 x0 x1 x2 xo)]
  unfold kernelRunB
  dsimp only
  rw [View.canon_unit_zero hz]
  simp only [View.readAt_eq_ld, h3.read_unread, h4.read_unread, h6.read_unread, View.ld_unit_zero (S := S1024x1024) hz, View.ld_unit_zero (S := S1024x2048) hz]

/-- k = 3: the running contents plus the block product, plus the bias row. -/
theorem outC_eq (c : Dev nD) (i : grid0.Coords)
    (a3 : Memref sig .tc .vmem S1024x1024 .f32) (h3 : a3.IsWhole) (a4 : Memref sig .tc .vmem S1024x2048 .bf16) (h4 : a4.IsWhole)
    (a5 : Memref sig .tc .vmem S1x2048 .f32) (h5 : a5.IsWhole) (a6 : Memref sig .tc .vmem S1024x2048 .f32) (h6 : a6.IsWhole)
    (hc1 : ¬k0_cond1 i = 1#1) (hc2 : k0_cond2 i = 1#1) (hc3 : k0_cond3 i = 1#1) (x0 : Vec F S1024x1024 .f32) (x1 : Vec F S1024x2048 .bf16) (x2 : Vec F S1x2048 .f32) (xo : Vec F S1024x2048 .f32) :
    outC c i a3 h3 a4 h4 a5 h5 a6 h6 hc1 hc2 hc3 x0 x1 x2 xo = k0_pay3 (k0_pay2 x0 x1 xo) x2 := by
  unfold outC
  rw [View.read_writes_eq_canon _ _ _ (coverC c i a3 h3 a4 h4 a5 h5 a6 h6 hc1 hc2 hc3 x0 x1 x2 xo)]
  unfold kernelRunC
  dsimp only
  sl_unfold_words
  rw [View.canon_cons_unit_zero (S := S1024x2048) hz, View.readCov_unit_zero (S := S1024x2048) _ hz]
  simp only [View.readAt_eq_ld, h3.read_unread, h4.read_unread, h5.read_unread, h6.read_unread, View.ld_unit_zero (S := S1024x1024) hz, View.ld_unit_zero (S := S1024x2048) hz, View.ld_unit_zero (S := S1x2048) hz]

end Cert.KernelIdeal.Body

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.KI.Payload.lean ====
/-
  The body's three stored values, read at one entry (p, q) of the 1024 × 2048 output block, over the extended reals.

  The product of the x block (1024 × 1024) and the weight block (1024 × 2048) into a zero accumulator is, at (p, q),
  the sum over the 1024 positions kk of the block's contracted axis of x[p, kk] · w[kk, q]: a change of float format
  is the identity and a cast to the same shape changes nothing.  The accumulating store adds that to the running
  entry, and the last store adds the bias row's entry of column q, the row having been broadcast down the 1024 rows.
-/
import proofs.«118897_j15367392985733_2_alg».proof.Proof.Gen.KernelIdeal.Skeleton
import proofs.«118897_j15367392985733_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The matrix product's dimension record: x's axis 1 contracted with the weight block's axis 0. -/
abbrev DD : DotDims S1024x1024 S1024x2048 S1024x2048 := dot_S1024x1024_S1024x2048_S1024x2048_1_0_0_1_n_n

/-- The left operand's row is the output's row; -/
theorem lhs0 (j : S1024x2048.Idx) (q : DD.contr.Idx) : (DD.lhsIdx j q 0).val = (j 0).val := by
  unfold DotDims.lhsIdx
  rw [dif_neg (show ¬(0 : Fin S1024x1024.rank) ∈ DD.lhsBatch by decide), dif_pos (show (0 : Fin S1024x1024.rank) ∈ DD.lhsNonContracting by decide)]
  rfl
/-- its column is the contraction position. -/
theorem lhs1 (j : S1024x2048.Idx) (q : DD.contr.Idx) : (DD.lhsIdx j q 1).val = (q ⟨0, by decide⟩).val :=
  DD.lhsIdx_val_of_single rfl j q
/-- The right operand's row is the contraction position; -/
theorem rhs0 (j : S1024x2048.Idx) (q : DD.contr.Idx) : (DD.rhsIdx j q 0).val = (q ⟨0, by decide⟩).val :=
  DD.rhsIdx_val_of_single rfl j q
/-- its column is the output's column. -/
theorem rhs1 (j : S1024x2048.Idx) (q : DD.contr.Idx) : (DD.rhsIdx j q 1).val = (j 1).val := by
  unfold DotDims.rhsIdx
  rw [dif_neg (show ¬(1 : Fin S1024x2048.rank) ∈ DD.rhsBatch by decide), dif_pos (show (1 : Fin S1024x2048.rank) ∈ DD.rhsNonContracting by decide)]
  rfl

/-- The block product at (p, q): Σ over kk of x[p, kk] · w[kk, q]. -/
theorem pay1_apply (x0 : Vec Ideal S1024x1024 .f32) (x1 : Vec Ideal S1024x2048 .bf16) (p : Fin 1024) (q : Fin 2048) :
    k0_pay1 (F := Ideal) x0 x1 (ix2 p q) = ∑ kk : Fin 1024, x0 (ix2 p kk) * x1 (ix2 kk q) := by
  unfold k0_pay1
  refine (Cert.LibMatmul.matmul_zero_sum1 DD none 1024 rfl rfl _ _ (ix2 p q) (fun k => ix2 p k) (fun k => ix2 k q) ?_ ?_).trans ?_
  · intro qq k hk
    funext a; apply Fin.ext
    match a with
    | ⟨0, _⟩ => exact lhs0 _ _
    | ⟨1, _⟩ => exact (lhs1 _ _).trans hk
  · intro qq k hk
    funext a; apply Fin.ext
    match a with
    | ⟨0, _⟩ => exact (rhs0 _ _).trans hk
    | ⟨1, _⟩ => exact rhs1 _ _
  · refine Finset.sum_congr rfl fun k _ => ?_
    rw [truncf_apply, shapeCast_self, shapeCast_self]

/-- The accumulating store at (p, q): the running entry plus the block product's. -/
theorem pay2_apply (x0 : Vec Ideal S1024x1024 .f32) (x1 : Vec Ideal S1024x2048 .bf16) (xo : Vec Ideal S1024x2048 .f32) (p : Fin 1024) (q : Fin 2048) :
    k0_pay2 (F := Ideal) x0 x1 xo (ix2 p q) = xo (ix2 p q) + ∑ kk : Fin 1024, x0 (ix2 p kk) * x1 (ix2 kk q) := by
  unfold k0_pay2
  rw [addf_apply, shapeCast_self, pay1_apply]

/-- The last store at (p, q): the running entry plus the bias row's entry of column q. -/
theorem pay3_apply (y : Vec Ideal S1024x2048 .f32) (x2 : Vec Ideal S1x2048 .f32) (p : Fin 1024) (q : Fin 2048) :
    k0_pay3 (F := Ideal) y x2 (ix2 p q) = y (ix2 p q) + x2 (ix2 (0 : Fin 1) q) := by
  unfold k0_pay3
  rw [addf_apply, shapeCast_self, shapeCast_self, broadcastTo_1b_ab_apply]

end Cert.KernelIdeal.Pay

end
-- ==== Proof.LibBlockSum.lean ====
import Mathlib.Algebra.BigOperators.Fin
import Mathlib.Logic.Equiv.Fin.Basic

/-!
# A finite sum cut into consecutive blocks

A sum over `Fin (B * n)` is the sum over the `B` consecutive blocks of length `n` of the sums inside each block,
and a sum over `Finset.range B` is the sum over `Fin B`. Both hold in every commutative additive monoid: no
subtraction, no finiteness of the terms and no order is used, so they apply to the extended reals as they stand.
The three instances at the end state the first one with literal extents, so that they rewrite a sum whose index
type is written `Fin 8192` or `Fin 16384` and not as a product.
-/

open scoped BigOperators

namespace Cert.LibBlockSum

variable {M : Type*} [AddCommMonoid M]

/-- The `r`-th position of the `j`-th block of length `n` lies below `B * n` when there are `B` blocks. -/
theorem block_lt {B n : ℕ} (j : Fin B) (r : Fin n) : j.val * n + r.val < B * n :=
  calc j.val * n + r.val < j.val * n + n := Nat.add_lt_add_left r.isLt _
    _ = (j.val + 1) * n := (Nat.succ_mul _ _).symm
    _ ≤ B * n := Nat.mul_le_mul_right n j.isLt

/-- A sum of `B * n` terms is the sum over `B` consecutive blocks of the sum of the `n` terms of the block:
    position `k = j * n + r` is the `r`-th term of block `j`, and `(j, r) ↦ j * n + r` is a bijection of
    `Fin B × Fin n` with `Fin (B * n)`. -/
theorem sum_blocks (B n : ℕ) (f : Fin (B * n) → M) :
    ∑ k, f k = ∑ j : Fin B, ∑ r : Fin n, f ⟨j.val * n + r.val, block_lt j r⟩ := by
  rw [← Equiv.sum_comp finProdFinEquiv f, Fintype.sum_prod_type]
  refine Finset.sum_congr rfl fun j _ => Finset.sum_congr rfl fun r _ => ?_
  refine congrArg f (Fin.ext ?_)
  show r.val + n * j.val = j.val * n + r.val
  rw [Nat.add_comm, Nat.mul_comm]

/-- A sum over the naturals below `B` is the sum over `Fin B` of the same terms. -/
theorem sum_range_eq_fin (B : ℕ) (g : ℕ → M) :
    ∑ s ∈ Finset.range B, g s = ∑ j : Fin B, g j.val :=
  (Fin.sum_univ_eq_sum_range g B).symm

/-- A sum of 8192 terms as 8 consecutive blocks of 1024. -/
theorem sum_8192_as_8x1024 (f : Fin 8192 → M) :
    ∑ k, f k = ∑ j : Fin 8, ∑ r : Fin 1024, f ⟨1024 * j.val + r.val, by omega⟩ := by
  refine (sum_blocks 8 1024 f).trans ?_
  refine Finset.sum_congr rfl fun j _ => Finset.sum_congr rfl fun r _ => ?_
  exact congrArg f (Fin.ext (Nat.add_right_cancel_iff.mpr (Nat.mul_comm _ _)))

/-- A sum of 8192 terms as 4 consecutive blocks of 2048. -/
theorem sum_8192_as_4x2048 (f : Fin 8192 → M) :
    ∑ k, f k = ∑ j : Fin 4, ∑ r : Fin 2048, f ⟨2048 * j.val + r.val, by omega⟩ := by
  refine (sum_blocks 4 2048 f).trans ?_
  refine Finset.sum_congr rfl fun j _ => Finset.sum_congr rfl fun r _ => ?_
  exact congrArg f (Fin.ext (Nat.add_right_cancel_iff.mpr (Nat.mul_comm _ _)))

/-- A sum of 16384 terms as 8 consecutive blocks of 2048. -/
theorem sum_16384_as_8x2048 (f : Fin 16384 → M) :
    ∑ k, f k = ∑ j : Fin 8, ∑ r : Fin 2048, f ⟨2048 * j.val + r.val, by omega⟩ := by
  refine (sum_blocks 8 2048 f).trans ?_
  refine Finset.sum_congr rfl fun j _ => Finset.sum_congr rfl fun r _ => ?_
  exact congrArg f (Fin.ext (Nat.add_right_cancel_iff.mpr (Nat.mul_comm _ _)))

end Cert.LibBlockSum
-- ==== Proof.LibFourBlocks.lean ====
import proofs.«118897_j15367392985733_2_alg».proof.Proof.LibBlockSum

/-!
# A sum of 4096 terms as four consecutive blocks of 1024

The sum over `Fin 4096` written out as the sum of its four quarters, each a sum over `Fin 1024` with the quarter's
offset (0, 1024, 2048, 3072) spelt as a literal, grouped from the left: `((q₀ + q₁) + q₂) + q₃`.  This is the form a
running total takes when the quarters are added one after the other.  It holds in every commutative additive monoid
(no subtraction, no order, no finiteness of the terms), so it applies to the extended reals as it stands.
-/

open scoped BigOperators

namespace Cert.LibFourBlocks

variable {M : Type*} [AddCommMonoid M]

/-- Σ over 4096 positions = ((Σ first quarter + Σ second) + Σ third) + Σ fourth. -/
theorem sum_4096_four_quarters (f : Fin 4096 → M) :
    ∑ k, f k = (∑ r : Fin 1024, f ⟨r.val, by omega⟩) + (∑ r : Fin 1024, f ⟨1024 + r.val, by omega⟩)
      + (∑ r : Fin 1024, f ⟨2048 + r.val, by omega⟩) + (∑ r : Fin 1024, f ⟨3072 + r.val, by omega⟩) := by
  refine (Cert.LibBlockSum.sum_blocks 4 1024 f).trans ?_
  rw [Fin.sum_univ_four]
  refine congrArg₂ (· + ·) (congrArg₂ (· + ·) (congrArg₂ (· + ·) ?_ ?_) ?_) ?_
  · exact Finset.sum_congr rfl fun r _ => congrArg f (Fin.ext (by simp))
  · exact Finset.sum_congr rfl fun r _ => congrArg f (Fin.ext (by simp))
  · exact Finset.sum_congr rfl fun r _ => congrArg f (Fin.ext (by simp))
  · exact Finset.sum_congr rfl fun r _ => congrArg f (Fin.ext (by show 3 * 1024 + r.val = 3072 + r.val; rfl))

end Cert.LibFourBlocks
-- ==== Proof.LibFlattenRows.lean ====
/-
  A reshape that merges the two leading axes of a rank-3 array, read at an index given by its coordinates.

  In row-major order the element (i, j, k) of an [a, b, c] array sits at position (i·b + j)·c + k, which is the
  position of (i·b + j, k) in an [a·b, c] array.  So the cast [a, b, c] → [n, c] (n = a·b) reads, at (i·b + j, k),
  the operand at (i, j, k), and the cast back [n, c] → [a, b, c] reads, at (i, j, k), the operand at (i·b + j, k).
  The merged row is passed as its own variable r with the equation r = i·b + j, so that a caller may spell it
  as it meets it.
-/
import Idealize.ShloMosaic.Lib.Pipeline.Value
import Idealize.ShloMosaic.Lib.ValueIdx

noncomputable section

namespace Cert.LibFlattenRows

open Idealize.ShloMosaic Idealize.ShloMosaic.ValueIdx

variable {α : Type}

/-- An `[a, b, c]` array cast to `[n, c]` reads, at `(r, k)` with `r = i·b + j`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` reads, at `(i, j, k)`, the operand at `(r, k)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibFlattenRows

end
-- ==== Proof.KI.Value.lean ====
/-
  What the region's result array holds after the run, as one function of the three arrays its input windows stage.

  Write X for the 8192 × 4096 array of x's rows, W for the 4096 × 4096 weight array in (contraction, output) order, and
  B for the 1 × 4096 bias row.  The output block of grid point (i, j, k) is rows 1024·i … and columns 2048·j …; the
  point's x block is rows 1024·i …, columns 1024·k … of X, its weight block rows 1024·k …, columns 2048·j … of W, and
  its bias block columns 2048·j … of B.  The block is written back only after the point with k = 3, and what it then
  holds at (p, q) is, unrolling the four points k = 0, 1, 2, 3 of the same (i, j),

      (((S₀ + S₁) + S₂) + S₃) + B[0, 2048·j + q],   S_k = Σ_{kk < 1024} X[1024·i + p, 1024·k + kk] · W[1024·k + kk, 2048·j + q].

  A sum of 4096 terms is the sum of its four quarters, so this is  Σ_{k < 4096} X[r, k] · W[k, o] + B[0, o]  at the global
  row r = 1024·i + p and column o = 2048·j + q: every written-back block is the restriction of that one function, and the
  16 written-back blocks cover the array.  The reshape after the region then reads row 2048·b + s at (b, s).
  Only associativity and commutativity of addition are used, so nothing is assumed about the entries being finite.
-/
import proofs.«118897_j15367392985733_2_alg».proof.Proof.KI.Pieces
import proofs.«118897_j15367392985733_2_alg».proof.Proof.KI.Payload
import proofs.«118897_j15367392985733_2_alg».proof.Proof.LibFourBlocks
import proofs.«118897_j15367392985733_2_alg».proof.Proof.LibFlattenRows
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Body Cert.KernelIdeal.Pay
open Idealize.ShloMosaic Idealize.ShloMosaic.TcCoe Idealize.ShloMosaic.ValueIdx Idealize.ShloMosaic.StableHlo
open Idealize.SL Idealize.SL.Sem
open Idealize.ShloMosaic.Pipeline (Dat)
open scoped BigOperators

variable (m : (ℓ : Loc nD τ sig) → Buf (Elt Ideal) ℓ) (ρ : Dev nD → PrngReg)

/-! ## The function -/

/-- Entry (r, o) of X · W plus the bias row. -/
def entry (X : S8192x4096.Idx → EReal) (W : S4096x4096.Idx → EReal) (B : S1x4096.Idx → EReal) (r : Fin 8192) (o : Fin 4096) : EReal :=
  (∑ k : Fin 4096, X (ix2 r k) * W (ix2 k o)) + B (ix2 (0 : Fin 1) o)

/-- The whole 8192 × 4096 array. -/
def whole (X : S8192x4096.Idx → EReal) (W : S4096x4096.Idx → EReal) (B : S1x4096.Idx → EReal) : S8192x4096.Idx → EReal :=
  fun i => entry X W B (i 0) (i 1)

/-- The three staged arrays as the region finds them. -/
abbrev Xc (c : Dev nD) : S8192x4096.Idx → EReal := V m c main_v18
abbrev Wc (c : Dev nD) : S4096x4096.Idx → EReal := V m c main_v19
abbrev Bc (c : Dev nD) : S1x4096.Idx → EReal := V m c main_v20

/-- Point t's blocks of the three staged arrays, as plain arrays of extended reals. -/
def xblk (c : Dev nD) (t : Fin cfg0.N) : S1024x1024.Idx → EReal := iblk m c 0 t
def wblk (c : Dev nD) (t : Fin cfg0.N) : S1024x2048.Idx → EReal := iblk m c 1 t
def bblk (c : Dev nD) (t : Fin cfg0.N) : S1x2048.Idx → EReal := iblk m c 2 t

/-! ## Where each window's block sits -/

/-- The block indices of the four windows at point t, in closed form: with t = 8·i + 4·j + k, the x block is (i, k), the
    weight block (k, j), the bias block (0, j), the output block (i, j). -/
theorem idx_facts : ∀ t : Fin cfg0.N,
    win0_0.index t (0 : Fin 2) = t.val / 8 ∧ win0_0.index t (1 : Fin 2) = t.val % 4
    ∧ win0_1.index t (0 : Fin 2) = t.val % 4 ∧ win0_1.index t (1 : Fin 2) = t.val / 4 % 2
    ∧ win0_2.index t (0 : Fin 2) = 0 ∧ win0_2.index t (1 : Fin 2) = t.val / 4 % 2
    ∧ win0_3.index t (0 : Fin 2) = t.val / 8 ∧ win0_3.index t (1 : Fin 2) = t.val / 4 % 2 :=
  (by decide +kernel : ∀ t : Fin grid0.N, _)

/-- An entry of point t's x block is X at the block's global row and column. -/
theorem x_entry (c : Dev nD) (t : Fin cfg0.N) (p kk : Fin 1024) (r : Fin 8192) (k : Fin 4096)
    (hr : r.val = t.val / 8 * 1024 + p.val) (hk : k.val = t.val % 4 * 1024 + kk.val) :
    xblk m c t (ix2 p kk) = Xc m c (ix2 r k) := by
  obtain ⟨e0, e1, -⟩ := idx_facts t
  show Xc m c (((cfg0.win 0).blk t).view.emb (ix2 p kk)) = Xc m c (ix2 r k)
  refine congrArg (Xc m c) (funext fun a => Fin.ext ?_)
  match a with
  | ⟨0, _⟩ => show win0_0.index t (0 : Fin 2) * 1024 + 1 * p.val = r.val; rw [e0, hr, Nat.one_mul]
  | ⟨1, _⟩ => show win0_0.index t (1 : Fin 2) * 1024 + 1 * kk.val = k.val; rw [e1, hk, Nat.one_mul]

/-- An entry of point t's weight block is W at the block's global row and column. -/
theorem w_entry (c : Dev nD) (t : Fin cfg0.N) (kk : Fin 1024) (q : Fin 2048) (k o : Fin 4096)
    (hk : k.val = t.val % 4 * 1024 + kk.val) (ho : o.val = t.val / 4 % 2 * 2048 + q.val) :
    wblk m c t (ix2 kk q) = Wc m c (ix2 k o) := by
  obtain ⟨-, -, e2, e3, -⟩ := idx_facts t
  show Wc m c (((cfg0.win 1).blk t).view.emb (ix2 kk q)) = Wc m c (ix2 k o)
  refine congrArg (Wc m c) (funext fun a => Fin.ext ?_)
  match a with
  | ⟨0, _⟩ => show win0_1.index t (0 : Fin 2) * 1024 + 1 * kk.val = k.val; rw [e2, hk, Nat.one_mul]
  | ⟨1, _⟩ => show win0_1.index t (1 : Fin 2) * 2048 + 1 * q.val = o.val; rw [e3, ho, Nat.one_mul]

/-- An entry of point t's bias block is B at the block's global column. -/
theorem b_entry (c : Dev nD) (t : Fin cfg0.N) (q : Fin 2048) (o : Fin 4096) (ho : o.val = t.val / 4 % 2 * 2048 + q.val) :
    bblk m c t (ix2 (0 : Fin 1) q) = Bc m c (ix2 (0 : Fin 1) o) := by
  obtain ⟨-, -, -, -, e4, e5, -⟩ := idx_facts t
  show Bc m c (((cfg0.win 2).blk t).view.emb (ix2 (0 : Fin 1) q)) = Bc m c (ix2 (0 : Fin 1) o)
  refine congrArg (Bc m c) (funext fun a => Fin.ext ?_)
  match a with
  | ⟨0, _⟩ => show win0_2.index t (0 : Fin 2) * 1 + 1 * (0 : Fin 1).val = (0 : Fin 1).val; rw [e4]; simp
  | ⟨1, _⟩ => show win0_2.index t (1 : Fin 2) * 2048 + 1 * q.val = o.val; rw [e5, ho, Nat.one_mul]

/-! ## What a written-back block holds -/

/-- The block product of point `s` at (p, q). -/
def part (c : Dev nD) (s : Fin cfg0.N) (p : Fin 1024) (q : Fin 2048) : EReal :=
  ∑ kk : Fin 1024, xblk m c s (ix2 p kk) * wblk m c s (ix2 kk q)

/-- After the point n + 3 with n ≡ 0 (mod 4) the output block holds, at (p, q), the four block products of the points
    n, n + 1, n + 2, n + 3 added from the left, plus the bias row's entry. -/
theorem outs_flush (c : Dev nD) (n : ℕ) (h : n + 3 < cfg0.N) (hn : n % 4 = 0) (p : Fin 1024) (q : Fin 2048) :
    (outsAt m c (n + 3) h : S1024x2048.Idx → EReal) (ix2 p q)
      = (((part m c ⟨n, Nat.lt_of_succ_lt (Nat.lt_of_succ_lt (Nat.lt_of_succ_lt h))⟩ p q
            + part m c ⟨n + 1, Nat.lt_of_succ_lt (Nat.lt_of_succ_lt h)⟩ p q)
          + part m c ⟨n + 2, Nat.lt_of_succ_lt h⟩ p q)
        + part m c ⟨n + 3, h⟩ p q)
        + bblk m c ⟨n + 3, h⟩ (ix2 (0 : Fin 1) q) := by
  have h2 : n + 2 < cfg0.N := Nat.lt_of_succ_lt h
  have h1 : n + 1 < cfg0.N := Nat.lt_of_succ_lt h2
  have h0 : n < cfg0.N := Nat.lt_of_succ_lt h1
  have e3 := outsAt_C m c ⟨n + 3, h⟩ (by show (n + 3) % 4 = 3; omega)
  have e2 := outsAt_B m c ⟨n + 2, h2⟩ (by show ¬(n + 2) % 4 = 0; omega) (by show ¬(n + 2) % 4 = 3; omega)
  have e1 := outsAt_B m c ⟨n + 1, h1⟩ (by show ¬(n + 1) % 4 = 0; omega) (by show ¬(n + 1) % 4 = 3; omega)
  have e0 := outsAt_A m c ⟨n, h0⟩ hn
  rw [outC_eq] at e3
  rw [outB_eq] at e2 e1
  rw [outA_eq] at e0
  have f0 : (outsAt m c n h0 : S1024x2048.Idx → EReal) (ix2 p q) = part m c ⟨n, h0⟩ p q :=
    (congrFun e0 (ix2 p q)).trans (pay1_apply _ _ p q)
  have f1 : (outsAt m c (n + 1) h1 : S1024x2048.Idx → EReal) (ix2 p q) = part m c ⟨n, h0⟩ p q + part m c ⟨n + 1, h1⟩ p q :=
    (congrFun e1 (ix2 p q)).trans ((pay2_apply _ _ _ p q).trans (congrArg (· + part m c ⟨n + 1, h1⟩ p q) f0))
  have f2 : (outsAt m c (n + 2) h2 : S1024x2048.Idx → EReal) (ix2 p q)
      = part m c ⟨n, h0⟩ p q + part m c ⟨n + 1, h1⟩ p q + part m c ⟨n + 2, h2⟩ p q :=
    (congrFun e2 (ix2 p q)).trans ((pay2_apply _ _ _ p q).trans (congrArg (· + part m c ⟨n + 2, h2⟩ p q) f1))
  refine (congrFun e3 (ix2 p q)).trans ((pay3_apply _ _ p q).trans ?_)
  refine congrArg (· + bblk m c ⟨n + 3, h⟩ (ix2 (0 : Fin 1) q)) ?_
  exact (pay2_apply _ _ _ p q).trans (congrArg (· + part m c ⟨n + 3, h⟩ p q) f2)

/-- What a point that writes the output block back writes: the block of `whole` at the point's block position. -/
theorem flushed_eq (c : Dev nD) (t : Fin cfg0.N) (hf : (cfg0.win 3).flush t = true) :
    (dats m 0 c).flushed 3 t = ((cfg0.win 3).blk t).view.read (Elt Ideal) (whole (Xc m c) (Wc m c) (Bc m c)) := by
  have h3 : t.val % 4 = 3 := (flush0_3 t).mp hf
  obtain ⟨tv, ht⟩ := t
  obtain ⟨n, rfl⟩ : ∃ n, tv = n + 3 := ⟨tv - 3, by dsimp only at h3; omega⟩
  have hn : n % 4 = 0 := by dsimp only at h3; omega
  have hN : n + 3 < 64 := lt_of_lt_of_eq ht N_0
  have h2 : n + 2 < cfg0.N := Nat.lt_of_succ_lt ht
  have h1 : n + 1 < cfg0.N := Nat.lt_of_succ_lt h2
  have h0 : n < cfg0.N := Nat.lt_of_succ_lt h1
  show (cfg0.win 3).cut (grid0.coords ⟨n + 3, ht⟩) ((dats m 0 c).after 3 ⟨n + 3, ht⟩) = _
  rw [after_3]
  funext j
  obtain ⟨p, q, rfl⟩ : ∃ (p : Fin 1024) (q : Fin 2048), j = ix2 p q := ⟨j 0, j 1, eq_ix2 j⟩
  obtain ⟨-, -, -, -, -, -, e6, e7⟩ := idx_facts ⟨n + 3, ht⟩
  have hr : (n + 3) / 8 * 1024 + p.val < 8192 := by have := p.isLt; omega
  have ho : (n + 3) / 4 % 2 * 2048 + q.val < 4096 := by have := q.isLt; omega
  have hemb : ((cfg0.win 3).blk ⟨n + 3, ht⟩).view.emb (ix2 p q)
      = ix2 (⟨(n + 3) / 8 * 1024 + p.val, hr⟩ : Fin 8192) (⟨(n + 3) / 4 % 2 * 2048 + q.val, ho⟩ : Fin 4096) := by
    funext a; apply Fin.ext
    match a with
    | ⟨0, _⟩ => show win0_3.index ⟨n + 3, ht⟩ (0 : Fin 2) * 1024 + 1 * p.val = (n + 3) / 8 * 1024 + p.val; rw [e6, Nat.one_mul]
    | ⟨1, _⟩ => show win0_3.index ⟨n + 3, ht⟩ (1 : Fin 2) * 2048 + 1 * q.val = (n + 3) / 4 % 2 * 2048 + q.val; rw [e7, Nat.one_mul]
  show (outsAt m c (n + 3) ht : S1024x2048.Idx → EReal) (ix2 p q)
      = whole (Xc m c) (Wc m c) (Bc m c) (((cfg0.win 3).blk ⟨n + 3, ht⟩).view.emb (ix2 p q))
  rw [hemb, outs_flush m c n ht hn p q]
  show _ = entry (Xc m c) (Wc m c) (Bc m c) ⟨(n + 3) / 8 * 1024 + p.val, hr⟩ ⟨(n + 3) / 4 % 2 * 2048 + q.val, ho⟩
  unfold entry
  rw [Cert.LibFourBlocks.sum_4096_four_quarters]
  have hp := p.isLt
  have hq := q.isLt
  refine congrArg₂ (· + ·) (congrArg₂ (· + ·) (congrArg₂ (· + ·) (congrArg₂ (· + ·) ?_ ?_) ?_) ?_) ?_
  · exact Finset.sum_congr rfl fun kk _ => congrArg₂ (· * ·)
      (x_entry m c ⟨n, h0⟩ p kk ⟨(n + 3) / 8 * 1024 + p.val, hr⟩ ⟨kk.val, by have := kk.isLt; omega⟩ (by show (n + 3) / 8 * 1024 + p.val = (n) / 8 * 1024 + p.val; omega) (by show kk.val = (n) % 4 * 1024 + kk.val; omega))
      (w_entry m c ⟨n, h0⟩ kk q ⟨kk.val, by have := kk.isLt; omega⟩ ⟨(n + 3) / 4 % 2 * 2048 + q.val, ho⟩ (by show kk.val = (n) % 4 * 1024 + kk.val; omega) (by show (n + 3) / 4 % 2 * 2048 + q.val = (n) / 4 % 2 * 2048 + q.val; omega))
  · exact Finset.sum_congr rfl fun kk _ => congrArg₂ (· * ·)
      (x_entry m c ⟨n + 1, h1⟩ p kk ⟨(n + 3) / 8 * 1024 + p.val, hr⟩ ⟨1024 + kk.val, by have := kk.isLt; omega⟩ (by show (n + 3) / 8 * 1024 + p.val = (n + 1) / 8 * 1024 + p.val; omega) (by show 1024 + kk.val = (n + 1) % 4 * 1024 + kk.val; omega))
      (w_entry m c ⟨n + 1, h1⟩ kk q ⟨1024 + kk.val, by have := kk.isLt; omega⟩ ⟨(n + 3) / 4 % 2 * 2048 + q.val, ho⟩ (by show 1024 + kk.val = (n + 1) % 4 * 1024 + kk.val; omega) (by show (n + 3) / 4 % 2 * 2048 + q.val = (n + 1) / 4 % 2 * 2048 + q.val; omega))
  · exact Finset.sum_congr rfl fun kk _ => congrArg₂ (· * ·)
      (x_entry m c ⟨n + 2, h2⟩ p kk ⟨(n + 3) / 8 * 1024 + p.val, hr⟩ ⟨2048 + kk.val, by have := kk.isLt; omega⟩ (by show (n + 3) / 8 * 1024 + p.val = (n + 2) / 8 * 1024 + p.val; omega) (by show 2048 + kk.val = (n + 2) % 4 * 1024 + kk.val; omega))
      (w_entry m c ⟨n + 2, h2⟩ kk q ⟨2048 + kk.val, by have := kk.isLt; omega⟩ ⟨(n + 3) / 4 % 2 * 2048 + q.val, ho⟩ (by show 2048 + kk.val = (n + 2) % 4 * 1024 + kk.val; omega) (by show (n + 3) / 4 % 2 * 2048 + q.val = (n + 2) / 4 % 2 * 2048 + q.val; omega))
  · exact Finset.sum_congr rfl fun kk _ => congrArg₂ (· * ·)
      (x_entry m c ⟨n + 3, ht⟩ p kk ⟨(n + 3) / 8 * 1024 + p.val, hr⟩ ⟨3072 + kk.val, by have := kk.isLt; omega⟩ rfl (by show 3072 + kk.val = (n + 3) % 4 * 1024 + kk.val; omega))
      (w_entry m c ⟨n + 3, ht⟩ kk q ⟨3072 + kk.val, by have := kk.isLt; omega⟩ ⟨(n + 3) / 4 % 2 * 2048 + q.val, ho⟩ (by show 3072 + kk.val = (n + 3) % 4 * 1024 + kk.val; omega) rfl)
  · exact b_entry m c ⟨n + 3, ht⟩ q ⟨(n + 3) / 4 % 2 * 2048 + q.val, ho⟩ rfl

/-! ## The blocks cover the array -/

/-- An index of the array is in point t's output block iff each coordinate is in the block's range on its axis. -/
theorem mem_blk (t : Fin cfg0.N) (i : S8192x4096.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v21).slice (win0_3.rect t)).set ↔ _
  rw [View.set_slice_whole, Rect.mem_set_unit]
  exact Iff.rfl

/-- Every index lies in the block some point writes back: row r and column o are in the block of the point
    8·(r / 1024) + 4·(o / 2048) + 3. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hlt : (i 0).val / 1024 * 8 + (i 1).val / 2048 * 4 + 3 < cfg0.N := by rw [show cfg0.N = 64 from N_0]; omega
  refine ⟨⟨(i 0).val / 1024 * 8 + (i 1).val / 2048 * 4 + 3, hlt⟩, (flush0_3 _).mpr (by dsimp only; omega), ?_⟩
  rw [mem_blk]
  obtain ⟨-, -, -, -, -, -, e6, e7⟩ := idx_facts ⟨(i 0).val / 1024 * 8 + (i 1).val / 2048 * 4 + 3, hlt⟩
  intro a
  match a with
  | ⟨0, _⟩ =>
    show win0_3.index _ (0 : Fin 2) * 1024 ≤ (i 0).val ∧ (i 0).val < win0_3.index _ (0 : Fin 2) * 1024 + 1024
    rw [e6]; dsimp only; omega
  | ⟨1, _⟩ =>
    show win0_3.index _ (1 : Fin 2) * 2048 ≤ (i 1).val ∧ (i 1).val < win0_3.index _ (1 : Fin 2) * 2048 + 2048
    rw [e7]; dsimp only; omega

/-- The result array after the region is `whole` of the three staged arrays. -/
theorem final (c : Dev nD) : (dats m 0 c).arrAt 3 cfg0.N = whole (Xc m c) (Wc m c) (Bc m c) :=
  (dats m 0 c).arrAt_eq_of_cover 3 (whole (Xc m c) (Wc m c) (Bc m c)) (flushed_eq m c) cover

/-! ## The reshape after the region, and the run -/

/-- The program's result: the region's result array, rows regrouped as 4 × 2048. -/
def result (c : Dev nD) : S4x2048x4096.Idx → EReal :=
  shapeCast S4x2048x4096 (whole (Xc m c) (Wc m c) (Bc m c)) Facts₀.shapeCasts_S8192x4096_S4x2048x4096

/-- Its entry (b, s, o) is entry (2048·b + s, o) of the region's result. -/
theorem result_apply (c : Dev nD) (b : Fin 4) (s : Fin 2048) (o : Fin 4096) (r : Fin 8192) (hr : r.val = b.val * 2048 + s.val) :
    result m c (ix3 b s o) = entry (Xc m c) (Wc m c) (Bc m c) r o :=
  Cert.LibFlattenRows.shapeCast_nc_abc_apply _ _ b s o r hr

/-- What the host line after the region leaves in the program's result buffer. -/
theorem tail_eq (c : Dev nD) :
    Pipeline.afterTail₀ cfgs (dats m) 0 (V0 m) [hostOps1] c main_v22 = result m c := by
  unfold Pipeline.afterTail₀
  show StableHlo.after hostOps1 _ (Proc.devRef .tc main_v22) = _
  after_results
  unfold result
  exact congrArg (fun z => shapeCast S4x2048x4096 z Facts₀.shapeCasts_S8192x4096_S4x2048x4096)
    ((Pipeline.withArrays_arr spec0 launch0.win.arr_inj c _ _ 3).trans (final m c))

/-- The run, read: the result buffer at `result`, the three arguments unchanged. -/
theorem run : θ_run defs (onTc (τ := τ) (main (F := Ideal))) ⟨m, fun _ => 0, ρ⟩ fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v22 (Pipeline.mem_restRefs_of main_v22 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Val

end
-- ==== Proof.KIGlue.lean ====
import proofs.«118897_j15367392985733_2_alg».proof.Proof.Gen.KernelIdeal.Frame
import proofs.«118897_j15367392985733_2_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run

/-!
The three arrays the pipelined region reads, each written by the host operations that precede it, read at an index:
the input with its two leading axes merged, the transposed quantized weight, and the quantized bias as a one-row matrix.
The quantized weight and bias are the same host computation as in the reference program, so they are stated with the
reference's own terms for them.
-/

set_option maxRecDepth 16384

noncomputable section

namespace Cert.KernelIdeal.Glue

open Cert.KernelIdeal Cert.KernelIdeal.Gen
open Idealize.ShloMosaic Idealize.ShloMosaic.ValueIdx Idealize.ShloMosaic.TcCoe Idealize.SL.Sem Idealize.ShloMosaic.StableHlo
open Facts₀ Facts

variable (m : (ℓ : Loc nD τ sig) → Buf (Elt Ideal) ℓ) (c : Dev nD)

/-- The region's first input array is the input with its batch and sequence axes merged into one row axis. -/
theorem V_x_eq :
    (Gen.V m c main_v18 : S8192x4096.Idx → EReal)
      = shapeCast S8192x4096 (m ((c : Thread nD τ).loc main_arg0) : S4x2048x4096.Idx → EReal) Facts₀.shapeCasts_S4x2048x4096_S8192x4096 := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  rfl

/-- Row `r = b·2048 + s` of the merged input is row `(b, s)` of the input. -/
theorem V_x_apply (r : Fin 8192) (k : Fin 4096) (b : Fin 4) (s : Fin 2048) (hr : r.val = b.val * 2048 + s.val) :
    (Gen.V m c main_v18 : S8192x4096.Idx → EReal) (ix2 r k)
      = (m ((c : Thread nD τ).loc main_arg0) : S4x2048x4096.Idx → EReal) (ix3 b s k) := by
  rw [V_x_eq]
  -- both positions in row-major order: (b·2048 + s)·4096 + k
  refine shapeCast_apply (s := S4x2048x4096) (t := S8192x4096) _ _ _ _ ?_
  show (S4x2048x4096.rowMajor (ix3 b s k)).val = (S8192x4096.rowMajor (ix2 r k)).val
  rw [Shape.rowMajor_val_three, Shape.rowMajor_val_two]
  show (b.val * 2048 + s.val) * 4096 + k.val = r.val * 4096 + k.val
  rw [hr]

/-- The region's third input array is the quantized bias as a one-row matrix; the quantized bias is computed from the
    weight and the bias by the operations the reference program computes it by. -/
theorem V_b_eq :
    (Gen.V m c main_v20 : S1x4096.Idx → EReal)
      = shapeCast S1x4096
          (Cert.ReferenceIdeal.Read.val_main_v16 (F := Ideal) (m ((c : Thread nD τ).loc main_arg1)) (m ((c : Thread nD τ).loc main_arg2)) : S4096.Idx → EReal)
          Facts₀.shapeCasts_S4096_S1x4096 := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  rfl

/-- Entry `(0, n)` of the one-row bias matrix is entry `n` of the quantized bias. -/
theorem V_b_apply (n : Fin 4096) :
    (Gen.V m c main_v20 : S1x4096.Idx → EReal) (ix2 (0 : Fin 1) n)
      = Cert.ReferenceIdeal.Read.val_main_v16 (F := Ideal) (m ((c : Thread nD τ).loc main_arg1)) (m ((c : Thread nD τ).loc main_arg2)) (ix1 n) := by
  rw [V_b_eq]
  exact shapeCast_a_1a_apply _ _ (0 : Fin 1) n

/-- The region's second input array is the transpose of the quantized weight (the change of format after it is the
    identity on extended reals); the quantized weight is computed from the weight by the operations the reference
    program computes it by. -/
theorem V_w_eq :
    (Gen.V m c main_v19 : S4096x4096.Idx → EReal)
      = transpose S4096x4096 [1, 0]
          (Cert.ReferenceIdeal.Read.val_main_v12 (F := Ideal) (m ((c : Thread nD τ).loc main_arg1)) : S4096x4096.Idx → EReal)
          Facts₀.transposes_S4096x4096_S4096x4096_1_0 := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  rfl

/-- Entry `(k, n)` of the transposed quantized weight is entry `(n, k)` of the quantized weight. -/
theorem V_w_apply (k n : Fin 4096) :
    (Gen.V m c main_v19 : S4096x4096.Idx → EReal) (ix2 k n)
      = Cert.ReferenceIdeal.Read.val_main_v12 (F := Ideal) (m ((c : Thread nD τ).loc main_arg1)) (ix2 n k) := by
  rw [V_w_eq]
  exact transpose_ix2_apply _ _ k n

end Cert.KernelIdeal.Glue

end
-- ==== Proof.RefSide.lean ====
import proofs.«118897_j15367392985733_2_alg».proof.Proof.Gen.ReferenceIdeal.Read
import Idealize.ShloMosaic.Lib.ValueIdx
import Idealize.ShloMosaic.PureOps.Ideal.Laws

/-!
The reference at an index. Its result is the sum of a contraction and a broadcast bias:
the element at `(b, s, o)` is `∑ k, x[b, s, k] * Wq[o, k] + bq[o]`, where `Wq` (the reference's
twelfth value) and `bq` (its sixteenth) are kept as opaque names.
-/

noncomputable section

namespace Cert.QuantLinear.Ref

open Idealize.ShloMosaic Idealize.ShloMosaic.ValueIdx Idealize.SL.Sem
open scoped BigOperators

/-- The reference's result read at `(b, s, o)`: the contraction of row `(b, s)` of the input with row `o`
    of the quantized weight, plus entry `o` of the quantized bias. -/
theorem ref_apply
    (x0 : (⟨Cert.ReferenceIdeal.S4x2048x4096, .f32⟩ : BufTy).Contents (Elt Ideal))
    (x1 : (⟨Cert.ReferenceIdeal.S4096x4096, .f32⟩ : BufTy).Contents (Elt Ideal))
    (x2 : (⟨Cert.ReferenceIdeal.S4096, .f32⟩ : BufTy).Contents (Elt Ideal))
    (b : Fin 4) (s : Fin 2048) (o : Fin 4096) :
    Cert.ReferenceIdeal.Read.val_main_v20 (F := Ideal) x0 x1 x2 (ix3 b s o)
      = (∑ k : Fin 4096, x0 (ix3 b s k) * Cert.ReferenceIdeal.Read.val_main_v12 (F := Ideal) x1 (ix2 o k))
        + Cert.ReferenceIdeal.Read.val_main_v16 (F := Ideal) x1 x2 (ix1 o) := by
  -- the left operand of the contraction is read at (b, s, k)
  have hl : ∀ k : Fin 4096, Cert.ReferenceIdeal.Read.lidx_main_v17 (ix3 b s o) k = ix3 b s k := fun k =>
    funext fun a => by
      match a with
      | ⟨0, _⟩ => rfl
      | ⟨1, _⟩ => rfl
      | ⟨2, _⟩ => rfl
  -- the right operand at (o, k)
  have hr : ∀ k : Fin 4096, Cert.ReferenceIdeal.Read.ridx_main_v17 (ix3 b s o) k = ix2 o k := fun k =>
    funext fun a => by
      match a with
      | ⟨0, _⟩ => rfl
      | ⟨1, _⟩ => rfl
  -- the two broadcasts read the bias at o
  have hb : Cert.ReferenceIdeal.Read.idx_main_v18 (Cert.ReferenceIdeal.Read.idx_main_v19 (ix3 b s o)) = ix1 o :=
    funext fun a => by
      match a with
      | ⟨0, _⟩ => rfl
  rw [Cert.ReferenceIdeal.Read.val_main_v20_apply, Cert.ReferenceIdeal.Read.val_main_v17_apply,
    Cert.ReferenceIdeal.Read.val_main_v19_apply, Cert.ReferenceIdeal.Read.val_main_v18_apply, hb, Ideal.addf_def]
  congr 1
  exact Finset.sum_congr rfl fun k _ => by rw [hl k, hr k]

end Cert.QuantLinear.Ref

end
-- ==== Proof.lean ====
/-
  A 4-bit-quantized linear layer: y[b, s, o] = Σ_i x[b, s, i] · Wq[o, i] + bq[o], where Wq and bq are the weight and the bias
  quantized per output channel (absolute maximum over the row, clamped below, divided by 7; divide, clip to ±7, round,
  multiply back).  Both programs compute Wq and bq by the same host operations, literal for literal, so they enter the
  proof as two opaque arrays.  The reference contracts all 4096 positions at once.  The kernel flattens x to 8192 rows,
  transposes Wq, and runs an 8 × 2 × 4 grid: at grid point (i, j, k) it multiplies a 1024 × 1024 block of x by a
  1024 × 2048 block of the transposed weights and stores the product (k = 0) or adds it to the output block (k > 0), and at
  k = 3 adds the bias row; a change of float format is the identity on the extended reals.

  The frames.  Each kernel program's frame is proved from its body's three runs (one per value pattern of the three
  branches on k) and the recursion over the grid points of what the output block holds; the reference's frame is its
  run with the result dropped.  No rewrite was applied in idealizing the kernel, so there is nothing to preserve.

  The values.  After the point with k = 3 an output block holds (((S₀ + S₁) + S₂) + S₃) + bias, S_k the k-th quarter of the
  contraction sum; a sum of 4096 terms is the sum of its quarters, so the region's result is Σ_k X[r, k] · W[k, o] + B[0, o]
  at every (r, o), and reading the flattening, the transpose and the row reshape at an index turns this into the
  reference's entry.  Only associativity and commutativity of addition on the extended reals are used: the precondition
  (finite inputs) is never opened.
-/
import proofs.«118897_j15367392985733_2_alg».proof.Defs
import proofs.«118897_j15367392985733_2_alg».proof.Proof.Gen.Kernel
import proofs.«118897_j15367392985733_2_alg».proof.Proof.Gen.KernelIdeal
import proofs.«118897_j15367392985733_2_alg».proof.Proof.Gen.ReferenceIdeal
import proofs.«118897_j15367392985733_2_alg».proof.Proof.Gen.ReferenceIdeal.Run
import proofs.«118897_j15367392985733_2_alg».proof.Proof.Gen.ReferenceIdeal.Read
import proofs.«118897_j15367392985733_2_alg».proof.Proof.Gen.Pre_finite_inputs
import proofs.«118897_j15367392985733_2_alg».proof.Proof.K.Body
import proofs.«118897_j15367392985733_2_alg».proof.Proof.KI.Body
import proofs.«118897_j15367392985733_2_alg».proof.Proof.KI.Value
import proofs.«118897_j15367392985733_2_alg».proof.Proof.KIGlue
import proofs.«118897_j15367392985733_2_alg».proof.Proof.RefSide
import Idealize.ShloMosaic.Adequacy
import Idealize.ShloMosaic.Init

noncomputable section

namespace Cert.Proof

open Idealize.ShloMosaic Idealize.ShloMosaic.TcCoe Idealize.ShloMosaic.ValueIdx Idealize.SL.Sem
open scoped BigOperators

/-! ## The frames and the idealization -/

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no operation was rewritten. -/
theorem preserves : Cert.preserves_Kernel_KernelIdeal := trivial

/-! ## The two results are one function of the arguments -/

/-- Entry by entry, the kernel's result — the contraction sum read through the flattened x and the transposed weights,
    plus the bias row's entry — is the reference's: the same sum over the same 4096 products, plus the same bias. -/
theorem result_eq (m : (ℓ : Loc Cert.KernelIdeal.nD Cert.KernelIdeal.τ Cert.KernelIdeal.sig) → Buf (Elt Ideal) ℓ) (c : Dev Cert.KernelIdeal.nD) :
    Cert.KernelIdeal.Val.result m c
      = Cert.ReferenceIdeal.Read.val_main_v20 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  funext i
  obtain ⟨b, s, o, rfl⟩ : ∃ (b : Fin 4) (s : Fin 2048) (o : Fin 4096), i = ix3 b s o := ⟨i 0, i 1, i 2, eq_ix3 i⟩
  have hr : b.val * 2048 + s.val < 8192 := by have := b.isLt; have := s.isLt; omega
  rw [Cert.KernelIdeal.Val.result_apply m c b s o ⟨b.val * 2048 + s.val, hr⟩ rfl, Cert.QuantLinear.Ref.ref_apply]
  unfold Cert.KernelIdeal.Val.entry
  refine congrArg₂ (· + ·) (Finset.sum_congr rfl fun k _ => congrArg₂ (· * ·) ?_ ?_) ?_
  · exact Cert.KernelIdeal.Glue.V_x_apply m c ⟨b.val * 2048 + s.val, hr⟩ k b s rfl
  · exact Cert.KernelIdeal.Glue.V_w_apply m c k o
  · exact Cert.KernelIdeal.Glue.V_b_apply m c o

/-- From memories that agree on the three arguments both idealized programs run, and end with equal results. -/
theorem algebraic : Cert.algebraic_KernelIdeal_ReferenceIdeal := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v20_eq _ _ _).trans (result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
